-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x50x32 : Shape := ⟨3, ![64, 50, 32]⟩
abbrev S_ : Shape := ⟨0, ![]⟩

class Facts : Prop where
  bcast_S_S64x50x32 : S_.BroadcastsInDim S64x50x32 (![] : Fin 0 → Fin S64x50x32.rank)
  reducesTo_S64x50x32_S_d0_1_2 : S64x50x32.ReducesTo [0, 1, 2] S_
  h_S_ : 0 < S_.numel

variable [Facts]

def fn {F : FTy → Type} [FloatOps F] (main_arg0 : FVec F S64x50x32 .f32) (main_arg1 : FVec F S64x50x32 .f32) (main_arg2 : FVec F S64x50x32 .f32) : IVec S_ 1 :=
  let main_v0 : FVec F S64x50x32 .f32 := Host.absf main_arg0
  let main_cst : FVec F S_ .f32 := constant S_ .f32 0x7F800000#32
  let main_v1 : FVec F S64x50x32 .f32 := broadcastInDim S64x50x32 ![] bcast_S_S64x50x32 main_cst
  let main_v2 : IVec S64x50x32 1 := cmpf .olt main_v0 main_v1
  let main_c : IVec S_ 1 := constantI S_ 1 1#1
  let main_v3 : IVec S_ 1 := (fun x v => Host.reduce IntOp.andi x v reducesTo_S64x50x32_S_d0_1_2 h_S_) main_v2 main_c
  let main_v4 : FVec F S64x50x32 .f32 := Host.absf main_arg1
  let main_cst_0 : FVec F S_ .f32 := constant S_ .f32 0x7F800000#32
  let main_v5 : FVec F S64x50x32 .f32 := broadcastInDim S64x50x32 ![] bcast_S_S64x50x32 main_cst_0
  let main_v6 : IVec S64x50x32 1 := cmpf .olt main_v4 main_v5
  let main_c_1 : IVec S_ 1 := constantI S_ 1 1#1
  let main_v7 : IVec S_ 1 := (fun x v => Host.reduce IntOp.andi x v reducesTo_S64x50x32_S_d0_1_2 h_S_) main_v6 main_c_1
  let main_v8 : IVec S_ 1 := andi main_v3 main_v7
  let main_v9 : FVec F S64x50x32 .f32 := Host.absf main_arg2
  let main_cst_2 : FVec F S_ .f32 := constant S_ .f32 0x7F800000#32
  let main_v10 : FVec F S64x50x32 .f32 := broadcastInDim S64x50x32 ![] bcast_S_S64x50x32 main_cst_2
  let main_v11 : IVec S64x50x32 1 := cmpf .olt main_v9 main_v10
  let main_c_3 : IVec S_ 1 := constantI S_ 1 1#1
  let main_v12 : IVec S_ 1 := (fun x v => Host.reduce IntOp.andi x v reducesTo_S64x50x32_S_d0_1_2 h_S_) main_v11 main_c_3
  let main_v13 : IVec S_ 1 := andi main_v8 main_v12
  main_v13
-- ==== Kernel.lean ====
abbrev S64x50x32 : Shape := ⟨3, ![64, 50, 32]⟩
abbrev S_ : Shape := ⟨0, ![]⟩
abbrev S64x50x1 : Shape := ⟨3, ![64, 50, 1]⟩
abbrev S64x50x33 : Shape := ⟨3, ![64, 50, 33]⟩
abbrev S3200x33 : Shape := ⟨2, ![3200, 33]⟩
abbrev S3200x35937 : Shape := ⟨2, ![3200, 35937]⟩
abbrev S64x33 : Shape := ⟨2, ![64, 33]⟩
abbrev S64x35937 : Shape := ⟨2, ![64, 35937]⟩
abbrev S64x1089 : Shape := ⟨2, ![64, 1089]⟩
abbrev S64x1 : Shape := ⟨2, ![64, 1]⟩
abbrev S64x50x35937 : Shape := ⟨3, ![64, 50, 35937]⟩

abbrev nBuf : Space → Nat
  | .hbm => 17
  | .vmem => 9
  | .smem => 0
  | _ => 0

abbrev bufTy : (tb : Table) → Fin (tcTables nBuf tb) → BufTy
  | .hbm, ⟨0, _⟩ => ⟨S64x50x32, .f32⟩
  | .hbm, ⟨1, _⟩ => ⟨S64x50x32, .f32⟩
  | .hbm, ⟨2, _⟩ => ⟨S64x50x32, .f32⟩
  | .hbm, ⟨3, _⟩ => ⟨S_, .f32⟩
  | .hbm, ⟨4, _⟩ => ⟨S64x50x1, .f32⟩
  | .hbm, ⟨5, _⟩ => ⟨S64x50x33, .f32⟩
  | .hbm, ⟨6, _⟩ => ⟨S3200x33, .f32⟩
  | .hbm, ⟨7, _⟩ => ⟨S_, .f32⟩
  | .hbm, ⟨8, _⟩ => ⟨S64x50x1, .f32⟩
  | .hbm, ⟨9, _⟩ => ⟨S64x50x33, .f32⟩
  | .hbm, ⟨10, _⟩ => ⟨S3200x33, .f32⟩
  | .hbm, ⟨11, _⟩ => ⟨S_, .f32⟩
  | .hbm, ⟨12, _⟩ => ⟨S64x50x1, .f32⟩
  | .hbm, ⟨13, _⟩ => ⟨S64x50x33, .f32⟩
  | .hbm, ⟨14, _⟩ => ⟨S3200x33, .f32⟩
  | .hbm, ⟨15, _⟩ => ⟨S3200x35937, .f32⟩
  | .hbm, ⟨16, _⟩ => ⟨S64x50x35937, .f32⟩
  | .local _ .vmem, ⟨0, _⟩ => ⟨S64x33, .f32⟩
  | .local _ .vmem, ⟨1, _⟩ => ⟨S64x33, .f32⟩
  | .local _ .vmem, ⟨2, _⟩ => ⟨S64x33, .f32⟩
  | .local _ .vmem, ⟨3, _⟩ => ⟨S64x33, .f32⟩
  | .local _ .vmem, ⟨4, _⟩ => ⟨S64x33, .f32⟩
  | .local _ .vmem, ⟨5, _⟩ => ⟨S64x33, .f32⟩
  | .local _ .vmem, ⟨6, _⟩ => ⟨S64x35937, .f32⟩
  | .local _ .vmem, ⟨7, _⟩ => ⟨S64x35937, .f32⟩
  | .local _ .vmem, ⟨8, _⟩ => ⟨S64x1089, .f32⟩
  | _, _ => ⟨S64x50x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x33 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x33 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x33 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x35937 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64x50x1 : S_.BroadcastsInDim S64x50x1 (![] : Fin 0 → Fin S64x50x1.rank)
  concatenates_S64x50x1_S64x50x32_S64x50x33_d2 : Shape.Concatenates [S64x50x1, S64x50x32] S64x50x33 2
  shapeCasts_S64x50x33_S3200x33 : S64x50x33.ShapeCasts S3200x33
  inb_S64x33_S64x33_0_0 : ∀ a, (![0, 0] : Fin 2 → Nat) a + S64x33.size a ≤ S64x33.size a
  h_S64x33 : 0 < S64x33.numel
  shapeCasts_S64x33_S64x33 : S64x33.ShapeCasts S64x33
  slices_S64x33_o0_0_S64x1 : S64x33.Slices ![0, 0] S64x1
  broadcasts_S64x1_S64x33 : S64x1.Broadcasts S64x33
  inb_S64x1089_S64x33_0_0 : ∀ a, (![0, 0] : Fin 2 → Nat) a + S64x33.size a ≤ S64x1089.size a
  slices_S64x33_o0_1_S64x1 : S64x33.Slices ![0, 1] S64x1
  inb_S64x1089_S64x33_0_33 : ∀ a, (![0, 33] : Fin 2 → Nat) a + S64x33.size a ≤ S64x1089.size a
  slices_S64x33_o0_2_S64x1 : S64x33.Slices ![0, 2] S64x1
  inb_S64x1089_S64x33_0_66 : ∀ a, (![0, 66] : Fin 2 → Nat) a + S64x33.size a ≤ S64x1089.size a
  slices_S64x33_o0_3_S64x1 : S64x33.Slices ![0, 3] S64x1
  inb_S64x1089_S64x33_0_99 : ∀ a, (![0, 99] : Fin 2 → Nat) a + S64x33.size a ≤ S64x1089.size a
  slices_S64x33_o0_4_S64x1 : S64x33.Slices ![0, 4] S64x1
  inb_S64x1089_S64x33_0_132 : ∀ a, (![0, 132] : Fin 2 → Nat) a + S64x33.size a ≤ S64x1089.size a
  slices_S64x33_o0_5_S64x1 : S64x33.Slices ![0, 5] S64x1
  inb_S64x1089_S64x33_0_165 : ∀ a, (![0, 165] : Fin 2 → Nat) a + S64x33.size a ≤ S64x1089.size a
  slices_S64x33_o0_6_S64x1 : S64x33.Slices ![0, 6] S64x1
  inb_S64x1089_S64x33_0_198 : ∀ a, (![0, 198] : Fin 2 → Nat) a + S64x33.size a ≤ S64x1089.size a
  slices_S64x33_o0_7_S64x1 : S64x33.Slices ![0, 7] S64x1
  inb_S64x1089_S64x33_0_231 : ∀ a, (![0, 231] : Fin 2 → Nat) a + S64x33.size a ≤ S64x1089.size a
  slices_S64x33_o0_8_S64x1 : S64x33.Slices ![0, 8] S64x1
  inb_S64x1089_S64x33_0_264 : ∀ a, (![0, 264] : Fin 2 → Nat) a + S64x33.size a ≤ S64x1089.size a
  slices_S64x33_o0_9_S64x1 : S64x33.Slices ![0, 9] S64x1
  inb_S64x1089_S64x33_0_297 : ∀ a, (![0, 297] : Fin 2 → Nat) a + S64x33.size a ≤ S64x1089.size a
  slices_S64x33_o0_10_S64x1 : S64x33.Slices ![0, 10] S64x1
  inb_S64x1089_S64x33_0_330 : ∀ a, (![0, 330] : Fin 2 → Nat) a + S64x33.size a ≤ S64x1089.size a
  slices_S64x33_o0_11_S64x1 : S64x33.Slices ![0, 11] S64x1
  inb_S64x1089_S64x33_0_363 : ∀ a, (![0, 363] : Fin 2 → Nat) a + S64x33.size a ≤ S64x1089.size a
  slices_S64x33_o0_12_S64x1 : S64x33.Slices ![0, 12] S64x1
  inb_S64x1089_S64x33_0_396 : ∀ a, (![0, 396] : Fin 2 → Nat) a + S64x33.size a ≤ S64x1089.size a
  slices_S64x33_o0_13_S64x1 : S64x33.Slices ![0, 13] S64x1
  inb_S64x1089_S64x33_0_429 : ∀ a, (![0, 429] : Fin 2 → Nat) a + S64x33.size a ≤ S64x1089.size a
  slices_S64x33_o0_14_S64x1 : S64x33.Slices ![0, 14] S64x1
  inb_S64x1089_S64x33_0_462 : ∀ a, (![0, 462] : Fin 2 → Nat) a + S64x33.size a ≤ S64x1089.size a
  slices_S64x33_o0_15_S64x1 : S64x33.Slices ![0, 15] S64x1
  inb_S64x1089_S64x33_0_495 : ∀ a, (![0, 495] : Fin 2 → Nat) a + S64x33.size a ≤ S64x1089.size a
  slices_S64x33_o0_16_S64x1 : S64x33.Slices ![0, 16] S64x1
  inb_S64x1089_S64x33_0_528 : ∀ a, (![0, 528] : Fin 2 → Nat) a + S64x33.size a ≤ S64x1089.size a
  slices_S64x33_o0_17_S64x1 : S64x33.Slices ![0, 17] S64x1
  inb_S64x1089_S64x33_0_561 : ∀ a, (![0, 561] : Fin 2 → Nat) a + S64x33.size a ≤ S64x1089.size a
  slices_S64x33_o0_18_S64x1 : S64x33.Slices ![0, 18] S64x1
  inb_S64x1089_S64x33_0_594 : ∀ a, (![0, 594] : Fin 2 → Nat) a + S64x33.size a ≤ S64x1089.size a
  slices_S64x33_o0_19_S64x1 : S64x33.Slices ![0, 19] S64x1
  inb_S64x1089_S64x33_0_627 : ∀ a, (![0, 627] : Fin 2 → Nat) a + S64x33.size a ≤ S64x1089.size a
  slices_S64x33_o0_20_S64x1 : S64x33.Slices ![0, 20] S64x1
  inb_S64x1089_S64x33_0_660 : ∀ a, (![0, 660] : Fin 2 → Nat) a + S64x33.size a ≤ S64x1089.size a
  slices_S64x33_o0_21_S64x1 : S64x33.Slices ![0, 21] S64x1
  inb_S64x1089_S64x33_0_693 : ∀ a, (![0, 693] : Fin 2 → Nat) a + S64x33.size a ≤ S64x1089.size a
  slices_S64x33_o0_22_S64x1 : S64x33.Slices ![0, 22] S64x1
  inb_S64x1089_S64x33_0_726 : ∀ a, (![0, 726] : Fin 2 → Nat) a + S64x33.size a ≤ S64x1089.size a
  slices_S64x33_o0_23_S64x1 : S64x33.Slices ![0, 23] S64x1
  inb_S64x1089_S64x33_0_759 : ∀ a, (![0, 759] : Fin 2 → Nat) a + S64x33.size a ≤ S64x1089.size a
  slices_S64x33_o0_24_S64x1 : S64x33.Slices ![0, 24] S64x1
  inb_S64x1089_S64x33_0_792 : ∀ a, (![0, 792] : Fin 2 → Nat) a + S64x33.size a ≤ S64x1089.size a
  slices_S64x33_o0_25_S64x1 : S64x33.Slices ![0, 25] S64x1
  inb_S64x1089_S64x33_0_825 : ∀ a, (![0, 825] : Fin 2 → Nat) a + S64x33.size a ≤ S64x1089.size a
  slices_S64x33_o0_26_S64x1 : S64x33.Slices ![0, 26] S64x1
  inb_S64x1089_S64x33_0_858 : ∀ a, (![0, 858] : Fin 2 → Nat) a + S64x33.size a ≤ S64x1089.size a
  slices_S64x33_o0_27_S64x1 : S64x33.Slices ![0, 27] S64x1
  inb_S64x1089_S64x33_0_891 : ∀ a, (![0, 891] : Fin 2 → Nat) a + S64x33.size a ≤ S64x1089.size a
  slices_S64x33_o0_28_S64x1 : S64x33.Slices ![0, 28] S64x1
  inb_S64x1089_S64x33_0_924 : ∀ a, (![0, 924] : Fin 2 → Nat) a + S64x33.size a ≤ S64x1089.size a
  slices_S64x33_o0_29_S64x1 : S64x33.Slices ![0, 29] S64x1
  inb_S64x1089_S64x33_0_957 : ∀ a, (![0, 957] : Fin 2 → Nat) a + S64x33.size a ≤ S64x1089.size a
  slices_S64x33_o0_30_S64x1 : S64x33.Slices ![0, 30] S64x1
  inb_S64x1089_S64x33_0_990 : ∀ a, (![0, 990] : Fin 2 → Nat) a + S64x33.size a ≤ S64x1089.size a
  slices_S64x33_o0_31_S64x1 : S64x33.Slices ![0, 31] S64x1
  inb_S64x1089_S64x33_0_1023 : ∀ a, (![0, 1023] : Fin 2 → Nat) a + S64x33.size a ≤ S64x1089.size a
  slices_S64x33_o0_32_S64x1 : S64x33.Slices ![0, 32] S64x1
  inb_S64x1089_S64x33_0_1056 : ∀ a, (![0, 1056] : Fin 2 → Nat) a + S64x33.size a ≤ S64x1089.size a
  inb_S64x1089_S64x1089_0_0 : ∀ a, (![0, 0] : Fin 2 → Nat) a + S64x1089.size a ≤ S64x1089.size a
  h_S64x1089 : 0 < S64x1089.numel
  broadcasts_S64x1_S64x1089 : S64x1.Broadcasts S64x1089
  inb_S64x35937_S64x1089_0_0 : ∀ a, (![0, 0] : Fin 2 → Nat) a + S64x1089.size a ≤ S64x35937.size a
  inb_S64x35937_S64x1089_0_1089 : ∀ a, (![0, 1089] : Fin 2 → Nat) a + S64x1089.size a ≤ S64x35937.size a
  inb_S64x35937_S64x1089_0_2178 : ∀ a, (![0, 2178] : Fin 2 → Nat) a + S64x1089.size a ≤ S64x35937.size a
  inb_S64x35937_S64x1089_0_3267 : ∀ a, (![0, 3267] : Fin 2 → Nat) a + S64x1089.size a ≤ S64x35937.size a
  inb_S64x35937_S64x1089_0_4356 : ∀ a, (![0, 4356] : Fin 2 → Nat) a + S64x1089.size a ≤ S64x35937.size a
  inb_S64x35937_S64x1089_0_5445 : ∀ a, (![0, 5445] : Fin 2 → Nat) a + S64x1089.size a ≤ S64x35937.size a
  inb_S64x35937_S64x1089_0_6534 : ∀ a, (![0, 6534] : Fin 2 → Nat) a + S64x1089.size a ≤ S64x35937.size a
  inb_S64x35937_S64x1089_0_7623 : ∀ a, (![0, 7623] : Fin 2 → Nat) a + S64x1089.size a ≤ S64x35937.size a
  inb_S64x35937_S64x1089_0_8712 : ∀ a, (![0, 8712] : Fin 2 → Nat) a + S64x1089.size a ≤ S64x35937.size a
  inb_S64x35937_S64x1089_0_9801 : ∀ a, (![0, 9801] : Fin 2 → Nat) a + S64x1089.size a ≤ S64x35937.size a
  inb_S64x35937_S64x1089_0_10890 : ∀ a, (![0, 10890] : Fin 2 → Nat) a + S64x1089.size a ≤ S64x35937.size a
  inb_S64x35937_S64x1089_0_11979 : ∀ a, (![0, 11979] : Fin 2 → Nat) a + S64x1089.size a ≤ S64x35937.size a
  inb_S64x35937_S64x1089_0_13068 : ∀ a, (![0, 13068] : Fin 2 → Nat) a + S64x1089.size a ≤ S64x35937.size a
  inb_S64x35937_S64x1089_0_14157 : ∀ a, (![0, 14157] : Fin 2 → Nat) a + S64x1089.size a ≤ S64x35937.size a
  inb_S64x35937_S64x1089_0_15246 : ∀ a, (![0, 15246] : Fin 2 → Nat) a + S64x1089.size a ≤ S64x35937.size a
  inb_S64x35937_S64x1089_0_16335 : ∀ a, (![0, 16335] : Fin 2 → Nat) a + S64x1089.size a ≤ S64x35937.size a
  inb_S64x35937_S64x1089_0_17424 : ∀ a, (![0, 17424] : Fin 2 → Nat) a + S64x1089.size a ≤ S64x35937.size a
  inb_S64x35937_S64x1089_0_18513 : ∀ a, (![0, 18513] : Fin 2 → Nat) a + S64x1089.size a ≤ S64x35937.size a
  inb_S64x35937_S64x1089_0_19602 : ∀ a, (![0, 19602] : Fin 2 → Nat) a + S64x1089.size a ≤ S64x35937.size a
  inb_S64x35937_S64x1089_0_20691 : ∀ a, (![0, 20691] : Fin 2 → Nat) a + S64x1089.size a ≤ S64x35937.size a
  inb_S64x35937_S64x1089_0_21780 : ∀ a, (![0, 21780] : Fin 2 → Nat) a + S64x1089.size a ≤ S64x35937.size a
  inb_S64x35937_S64x1089_0_22869 : ∀ a, (![0, 22869] : Fin 2 → Nat) a + S64x1089.size a ≤ S64x35937.size a
  inb_S64x35937_S64x1089_0_23958 : ∀ a, (![0, 23958] : Fin 2 → Nat) a + S64x1089.size a ≤ S64x35937.size a
  inb_S64x35937_S64x1089_0_25047 : ∀ a, (![0, 25047] : Fin 2 → Nat) a + S64x1089.size a ≤ S64x35937.size a
  inb_S64x35937_S64x1089_0_26136 : ∀ a, (![0, 26136] : Fin 2 → Nat) a + S64x1089.size a ≤ S64x35937.size a
  inb_S64x35937_S64x1089_0_27225 : ∀ a, (![0, 27225] : Fin 2 → Nat) a + S64x1089.size a ≤ S64x35937.size a
  inb_S64x35937_S64x1089_0_28314 : ∀ a, (![0, 28314] : Fin 2 → Nat) a + S64x1089.size a ≤ S64x35937.size a
  inb_S64x35937_S64x1089_0_29403 : ∀ a, (![0, 29403] : Fin 2 → Nat) a + S64x1089.size a ≤ S64x35937.size a
  inb_S64x35937_S64x1089_0_30492 : ∀ a, (![0, 30492] : Fin 2 → Nat) a + S64x1089.size a ≤ S64x35937.size a
  inb_S64x35937_S64x1089_0_31581 : ∀ a, (![0, 31581] : Fin 2 → Nat) a + S64x1089.size a ≤ S64x35937.size a
  inb_S64x35937_S64x1089_0_32670 : ∀ a, (![0, 32670] : Fin 2 → Nat) a + S64x1089.size a ≤ S64x35937.size a
  inb_S64x35937_S64x1089_0_33759 : ∀ a, (![0, 33759] : Fin 2 → Nat) a + S64x1089.size a ≤ S64x35937.size a
  inb_S64x35937_S64x1089_0_34848 : ∀ a, (![0, 34848] : Fin 2 → Nat) a + S64x1089.size a ≤ S64x35937.size a
  shapeCasts_S3200x35937_S64x50x35937 : S3200x35937.ShapeCasts S64x50x35937
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x33.size a ≤ S3200x33.size a
  hwx0_0 : ∀ i : grid0.Coords, EltTy.bits .f32 = 32 ∨ (Rect.block (s := S3200x33) S64x33.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x33.size a ≤ S3200x33.size a
  hwx0_1 : ∀ i : grid0.Coords, EltTy.bits .f32 = 32 ∨ (Rect.block (s := S3200x33) S64x33.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x33.size a ≤ S3200x33.size a
  hwx0_2 : ∀ i : grid0.Coords, EltTy.bits .f32 = 32 ∨ (Rect.block (s := S3200x33) S64x33.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x35937.size a ≤ S3200x35937.size a
  hwx0_3 : ∀ i : grid0.Coords, EltTy.bits .f32 = 32 ∨ (Rect.block (s := S3200x35937) S64x35937.size (cc0_transform_3 i) (hinb0_3 i)).WholeWords (EltTy.packing .f32)

variable [Facts₀]

abbrev win0_0 : Pipeline.Window sig grid0 :=
  Pipeline.Window.ofSpec (Memref.whole main_v2) S64x33.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x33.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x33.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x35937.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x50x32 : Shape := ⟨3, ![64, 50, 32]⟩
abbrev S_ : Shape := ⟨0, ![]⟩
abbrev S64x50x1 : Shape := ⟨3, ![64, 50, 1]⟩
abbrev S64x50x33 : Shape := ⟨3, ![64, 50, 33]⟩
abbrev S64x50x33x1x1 : Shape := ⟨5, ![64, 50, 33, 1, 1]⟩
abbrev S64x50x1x33x1 : Shape := ⟨5, ![64, 50, 1, 33, 1]⟩
abbrev S64x50x33x33x1 : Shape := ⟨5, ![64, 50, 33, 33, 1]⟩
abbrev S64x50x1x1x33 : Shape := ⟨5, ![64, 50, 1, 1, 33]⟩
abbrev S64x50x33x33x33 : Shape := ⟨5, ![64, 50, 33, 33, 33]⟩
abbrev S64x50x35937 : Shape := ⟨3, ![64, 50, 35937]⟩

abbrev nBuf : Space → Nat
  | .hbm => 22
  | .vmem => 0
  | .smem => 0
  | _ => 0

abbrev bufTy : (tb : Table) → Fin (tcTables nBuf tb) → BufTy
  | .hbm, ⟨0, _⟩ => ⟨S64x50x32, .f32⟩
  | .hbm, ⟨1, _⟩ => ⟨S64x50x32, .f32⟩
  | .hbm, ⟨2, _⟩ => ⟨S64x50x32, .f32⟩
  | .hbm, ⟨3, _⟩ => ⟨S_, .f32⟩
  | .hbm, ⟨4, _⟩ => ⟨S64x50x1, .f32⟩
  | .hbm, ⟨5, _⟩ => ⟨S64x50x33, .f32⟩
  | .hbm, ⟨6, _⟩ => ⟨S_, .f32⟩
  | .hbm, ⟨7, _⟩ => ⟨S64x50x1, .f32⟩
  | .hbm, ⟨8, _⟩ => ⟨S64x50x33, .f32⟩
  | .hbm, ⟨9, _⟩ => ⟨S_, .f32⟩
  | .hbm, ⟨10, _⟩ => ⟨S64x50x1, .f32⟩
  | .hbm, ⟨11, _⟩ => ⟨S64x50x33, .f32⟩
  | .hbm, ⟨12, _⟩ => ⟨S64x50x33x1x1, .f32⟩
  | .hbm, ⟨13, _⟩ => ⟨S64x50x1x33x1, .f32⟩
  | .hbm, ⟨14, _⟩ => ⟨S64x50x33x33x1, .f32⟩
  | .hbm, ⟨15, _⟩ => ⟨S64x50x33x33x1, .f32⟩
  | .hbm, ⟨16, _⟩ => ⟨S64x50x33x33x1, .f32⟩
  | .hbm, ⟨17, _⟩ => ⟨S64x50x1x1x33, .f32⟩
  | .hbm, ⟨18, _⟩ => ⟨S64x50x33x33x33, .f32⟩
  | .hbm, ⟨19, _⟩ => ⟨S64x50x33x33x33, .f32⟩
  | .hbm, ⟨20, _⟩ => ⟨S64x50x33x33x33, .f32⟩
  | .hbm, ⟨21, _⟩ => ⟨S64x50x35937, .f32⟩
  | _, _ => ⟨S64x50x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S_S64x50x1 : S_.BroadcastsInDim S64x50x1 (![] : Fin 0 → Fin S64x50x1.rank)
  concatenates_S64x50x1_S64x50x32_S64x50x33_d2 : Shape.Concatenates [S64x50x1, S64x50x32] S64x50x33 2
  bcast_S64x50x33_S64x50x33x1x1_0_1_2 : S64x50x33.BroadcastsInDim S64x50x33x1x1 (![0, 1, 2] : Fin 3 → Fin S64x50x33x1x1.rank)
  bcast_S64x50x33_S64x50x1x33x1_0_1_3 : S64x50x33.BroadcastsInDim S64x50x1x33x1 (![0, 1, 3] : Fin 3 → Fin S64x50x1x33x1.rank)
  bcast_S64x50x33x1x1_S64x50x33x33x1_0_1_2_3_4 : S64x50x33x1x1.BroadcastsInDim S64x50x33x33x1 (![0, 1, 2, 3, 4] : Fin 5 → Fin S64x50x33x33x1.rank)
  bcast_S64x50x1x33x1_S64x50x33x33x1_0_1_2_3_4 : S64x50x1x33x1.BroadcastsInDim S64x50x33x33x1 (![0, 1, 2, 3, 4] : Fin 5 → Fin S64x50x33x33x1.rank)
  bcast_S64x50x33_S64x50x1x1x33_0_1_4 : S64x50x33.BroadcastsInDim S64x50x1x1x33 (![0, 1, 4] : Fin 3 → Fin S64x50x1x1x33.rank)
  bcast_S64x50x33x33x1_S64x50x33x33x33_0_1_2_3_4 : S64x50x33x33x1.BroadcastsInDim S64x50x33x33x33 (![0, 1, 2, 3, 4] : Fin 5 → Fin S64x50x33x33x33.rank)
  bcast_S64x50x1x1x33_S64x50x33x33x33_0_1_2_3_4 : S64x50x1x1x33.BroadcastsInDim S64x50x33x33x33 (![0, 1, 2, 3, 4] : Fin 5 → Fin S64x50x33x33x33.rank)
  shapeCasts_S64x50x33x33x33_S64x50x35937 : S64x50x33x33x33.ShapeCasts S64x50x35937

variable [Facts₀]

class Facts : Prop extends Facts₀ where

variable [Facts]
-- ==== Proof.Spec.lean ====
/-
  The trilinear outer product, as one function of the three padded inputs.

  Each input x : [64, 50, 32] is first padded with a leading column of ones to X : [64, 50, 33].
  For padded V, A, D the result at (b, t, f), with the flat feature index f = i·1089 + j·33 + k
  (0 ≤ i, j, k < 33), is the product of V(b,t,i), A(b,t,j) and D(b,t,k).  The kernel forms
  V · (A · D) — it first builds the slab A(·,j)·D(·,k) at column j·33 + k and then scales it by
  V(·,i) into the i-th chunk of 1089 columns — while the reference forms (V · A) · D.  The two
  agree on all extended reals because multiplication there is associative; no finiteness is used.

  The same function is stated three times, over the three layouts it is met in: the arrays
  [64, 50, ·] of the reference, the flattened rows [3200, ·] the kernel's call works on
  (row r = b·50 + t), and one block of 64 rows.
-/
import Idealize.ShloMosaic.PureOps.Ideal
import Idealize.ShloMosaic.Lib.ValueIdx

noncomputable section

namespace Cert.Trilinear

open Idealize.ShloMosaic Idealize.ShloMosaic.ValueIdx

/-- A padded input, [64, 50, 33]. -/
abbrev SPad : Shape := ⟨3, ![64, 50, 33]⟩
/-- The result, [64, 50, 35937]. -/
abbrev SOut : Shape := ⟨3, ![64, 50, 35937]⟩
/-- A padded input as rows, [3200, 33]. -/
abbrev SRows : Shape := ⟨2, ![3200, 33]⟩
/-- The result as rows, [3200, 35937]. -/
abbrev SFlat : Shape := ⟨2, ![3200, 35937]⟩
/-- A block of 64 rows of a padded input. -/
abbrev SBlk : Shape := ⟨2, ![64, 33]⟩
/-- A block of 64 rows of the result. -/
abbrev SBlkOut : Shape := ⟨2, ![64, 35937]⟩
/-- The slab A·D for 64 rows, [64, 1089]. -/
abbrev SSlab : Shape := ⟨2, ![64, 1089]⟩

/-- The coordinate i of the flat feature index f = i·1089 + j·33 + k. -/
def fi (f : Fin 35937) : Fin 33 := ⟨f.val / 1089, by have := f.isLt; omega⟩
/-- The coordinate j of f = i·1089 + j·33 + k. -/
def fj (f : Fin 35937) : Fin 33 := ⟨f.val / 33 % 33, Nat.mod_lt _ (by decide)⟩
/-- The coordinate k of f = i·1089 + j·33 + k. -/
def fk (f : Fin 35937) : Fin 33 := ⟨f.val % 33, Nat.mod_lt _ (by decide)⟩

/-- The coordinate j of a slab column q = j·33 + k. -/
def qj (q : Fin 1089) : Fin 33 := ⟨q.val / 33, by have := q.isLt; omega⟩
/-- The coordinate k of a slab column q = j·33 + k. -/
def qk (q : Fin 1089) : Fin 33 := ⟨q.val % 33, Nat.mod_lt _ (by decide)⟩

/-- The result over the arrays [64, 50, ·]: V(b,t,i) · (A(b,t,j) · D(b,t,k)) at (b, t, i·1089 + j·33 + k). -/
def G (V A D : SPad.Idx → EReal) : SOut.Idx → EReal := fun y =>
  V (ix3 (y 0) (y 1) (fi (y 2))) * (A (ix3 (y 0) (y 1) (fj (y 2))) * D (ix3 (y 0) (y 1) (fk (y 2))))

/-- The same over rows: v(r,i) · (a(r,j) · d(r,k)) at (r, i·1089 + j·33 + k). -/
def Grows {n : Nat} (v a d : (⟨2, ![n, 33]⟩ : Shape).Idx → EReal) : (⟨2, ![n, 35937]⟩ : Shape).Idx → EReal := fun y =>
  v (ix2 (y 0) (fi (y 1))) * (a (ix2 (y 0) (fj (y 1))) * d (ix2 (y 0) (fk (y 1))))

/-- The slab of a block of rows: a(p,j) · d(p,k) at (p, j·33 + k). -/
def slab {n : Nat} (a d : (⟨2, ![n, 33]⟩ : Shape).Idx → EReal) : (⟨2, ![n, 1089]⟩ : Shape).Idx → EReal := fun y =>
  a (ix2 (y 0) (qj (y 1))) * d (ix2 (y 0) (qk (y 1)))

/-- Scaling the slab by v(·,i) into chunk i gives the rows' result: v(p,i) · slab(p, j·33+k). -/
theorem Grows_eq_scale_slab {n : Nat} (v a d : (⟨2, ![n, 33]⟩ : Shape).Idx → EReal) (p : Fin n) (i : Fin 33) (q : Fin 1089)
    (f : Fin 35937) (hf : f.val = i.val * 1089 + q.val) :
    Grows v a d (ix2 p f) = v (ix2 p i) * slab a d (ix2 p q) := by
  have hi : fi f = i := Fin.ext (by show f.val / 1089 = i.val; have := q.isLt; omega)
  have hj : fj f = qj q := Fin.ext (by show f.val / 33 % 33 = q.val / 33; have := q.isLt; omega)
  have hk : fk f = qk q := Fin.ext (by show f.val % 33 = q.val % 33; omega)
  show v (ix2 p (fi f)) * (a (ix2 p (fj f)) * d (ix2 p (fk f))) = v (ix2 p i) * (a (ix2 p (qj q)) * d (ix2 p (qk q)))
  rw [hi, hj, hk]

end Cert.Trilinear

end
-- ==== Proof.LibColumnScale.lean ====
/-
  One column of a matrix, kept as a column, broadcast along the rows of a second matrix and multiplied
  into it — the vector form of `x[:, o:o+1] * X` — read at an index.

  For x : [n, c] and X : [n, w], the slice of x at column o is an [n, 1] array; broadcast to [n, w] it
  reads x(p, o) at (p, q) (`column_broadcast_apply`, for any element type), and on the extended reals its
  product with X reads x(p, o) · X(p, q) there (`column_scale_apply`).  No finiteness is involved.
  `zero_offsets` is the rank-two zero offset vector, however its zeros are spelt.
-/
import Idealize.ShloMosaic.PureOps.Ideal
import Idealize.ShloMosaic.Lib.ValueIdx
import Idealize.ShloMosaic.Lib.ValueLayout
import Idealize.ShloMosaic.Lib.Pipeline.Value

noncomputable section

namespace Cert.LibColumnScale

open Idealize.ShloMosaic Idealize.ShloMosaic.ValueIdx

/-- The zero offsets of a rank-two rectangle, however they are spelt. -/
theorem zero_offsets : (![0, 0] : Fin 2 → Nat) = fun _ => 0 := funext fun a => by fin_cases a <;> rfl

/-- Column o of an [n, c] array, kept as an [n, 1] column and broadcast along the rows of an [n, w] array,
    reads x(p, o) at (p, q). -/
theorem column_broadcast_apply {α : Type} {n c w : Nat} (o : Nat) (ho : o < c) (x : (⟨2, ![n, c]⟩ : Shape).Idx → α)
    (hs : (⟨2, ![n, c]⟩ : Shape).Slices ![0, o] ⟨2, ![n, 1]⟩)
    (hb : (⟨2, ![n, 1]⟩ : Shape).Broadcasts ⟨2, ![n, w]⟩) (hn : n ≠ 1) (p : Fin n) (q : Fin w) :
    broadcastTo ⟨2, ![n, w]⟩ (extractStridedSlice ⟨2, ![n, 1]⟩ ![0, o] x hs) hb (ix2 p q) = x (ix2 p ⟨o, ho⟩) := by
  rw [broadcastTo_apply _ hb (ix2 p q) (ix2 p (0 : Fin 1)) (fun ax => by
    match ax with
    | ⟨0, _⟩ => show p.val = if n = 1 then 0 else p.val; rw [if_neg hn]
    | ⟨1, _⟩ => show (0 : ℕ) = if (1 : ℕ) = 1 then 0 else q.val; rw [if_pos rfl])]
  exact slice2_axis1_apply o x hs p (0 : Fin 1) ⟨o, ho⟩ rfl

/-- On the extended reals, that column times an [n, w] array X reads x(p, o) · X(p, q) at (p, q). -/
theorem column_scale_apply {n c w : Nat} (o : Nat) (ho : o < c) (x : FVec Ideal ⟨2, ![n, c]⟩ .f32) (X : FVec Ideal ⟨2, ![n, w]⟩ .f32)
    (hs : (⟨2, ![n, c]⟩ : Shape).Slices ![0, o] ⟨2, ![n, 1]⟩)
    (hb : (⟨2, ![n, 1]⟩ : Shape).Broadcasts ⟨2, ![n, w]⟩) (hn : n ≠ 1) (p : Fin n) (q : Fin w) :
    mulf (broadcastTo ⟨2, ![n, w]⟩ (extractStridedSlice ⟨2, ![n, 1]⟩ ![0, o] x hs) hb) X (ix2 p q)
      = x (ix2 p ⟨o, ho⟩) * X (ix2 p q) := by
  rw [mulf_apply, column_broadcast_apply o ho x hs hb hn p q]

end Cert.LibColumnScale

end
-- ==== Proof.Pieces.lean ====
/-
  What a store through a rectangle of 64 rows and a run of consecutive columns contributes to the
  function the whole buffer is to hold.  (The arithmetic of every store of the kernel's body — one
  column of a block, broadcast along the rows and multiplied into a slab — is read at an index in
  LibColumnScale.)

  The body writes two buffers 33 stores at a time.  Store j of the first kind puts
  a(·,j) · d(·,·) at columns [33 j, 33 j + 33) of the slab [64, 1089]; together they make
  slab(p, j·33 + k) = a(p,j) · d(p,k).  Store i of the second kind puts v(·,i) · slab at columns
  [1089 i, 1089 i + 1089) of the block [64, 35937]; together they make
  v(p,i) · (a(p,j) · d(p,k)) at column i·1089 + j·33 + k.
-/
import proofs.«174437_j67920612819047_2_alg».proof.Proof.Spec
import proofs.«174437_j67920612819047_2_alg».proof.Proof.LibColumnScale
import Idealize.ShloMosaic.Lib.ValueLayout
import Idealize.ShloMosaic.Lib.Pipeline.Value

noncomputable section

namespace Cert.Trilinear

open Idealize.ShloMosaic Idealize.ShloMosaic.ValueIdx

/-- A store of a(·,j) · d through columns [33 j, 33 j + 33) of the slab agrees with the slab. -/
theorem slab_piece (off : Nat) (j : Fin 33) (hoff : off = j.val * 33)
    (inb : ∀ a, (![0, off] : Fin 2 → Nat) a + SBlk.size a ≤ SSlab.size a)
    (a d : SBlk.Idx → EReal) (w : SBlk.Idx → EReal)
    (hw : ∀ (p : Fin 64) (k : Fin 33), w (ix2 p k) = a (ix2 p j) * d (ix2 p k))
    (x : (Rect.unit (s := SSlab) ![0, off] SBlk.size inb).shape.Idx) :
    w x = slab a d ((Rect.unit (s := SSlab) ![0, off] SBlk.size inb).emb x) := by
  obtain ⟨p, k, rfl⟩ : ∃ (p : Fin 64) (k : Fin 33), x = ix2 p k := ⟨x 0, x 1, eq_ix2 x⟩
  rw [hw]
  have e0 : ((Rect.unit (s := SSlab) ![0, off] SBlk.size inb).emb (ix2 p k)) 0 = p :=
    Fin.ext (by show 0 + 1 * p.val = p.val; omega)
  have ej : qj (((Rect.unit (s := SSlab) ![0, off] SBlk.size inb).emb (ix2 p k)) 1) = j :=
    Fin.ext (by show (off + 1 * k.val) / 33 = j.val; have := k.isLt; omega)
  have ek : qk (((Rect.unit (s := SSlab) ![0, off] SBlk.size inb).emb (ix2 p k)) 1) = k :=
    Fin.ext (by show (off + 1 * k.val) % 33 = k.val; have := k.isLt; omega)
  show _ = a (ix2 _ (qj _)) * d (ix2 _ (qk _))
  rw [e0, ej, ek]

/-- A store of v(·,i) · slab through columns [1089 i, 1089 i + 1089) of the block agrees with the rows' result. -/
theorem chunk_piece (off : Nat) (i : Fin 33) (hoff : off = i.val * 1089)
    (inb : ∀ a, (![0, off] : Fin 2 → Nat) a + SSlab.size a ≤ SBlkOut.size a)
    (v a d : SBlk.Idx → EReal) (w : SSlab.Idx → EReal)
    (hw : ∀ (p : Fin 64) (q : Fin 1089), w (ix2 p q) = v (ix2 p i) * slab a d (ix2 p q))
    (x : (Rect.unit (s := SBlkOut) ![0, off] SSlab.size inb).shape.Idx) :
    w x = Grows v a d ((Rect.unit (s := SBlkOut) ![0, off] SSlab.size inb).emb x) := by
  obtain ⟨p, q, rfl⟩ : ∃ (p : Fin 64) (q : Fin 1089), x = ix2 p q := ⟨x 0, x 1, eq_ix2 x⟩
  rw [hw]
  have e0 : ((Rect.unit (s := SBlkOut) ![0, off] SSlab.size inb).emb (ix2 p q)) 0 = p :=
    Fin.ext (by show 0 + 1 * p.val = p.val; omega)
  have ey : (Rect.unit (s := SBlkOut) ![0, off] SSlab.size inb).emb (ix2 p q)
      = ix2 p (((Rect.unit (s := SBlkOut) ![0, off] SSlab.size inb).emb (ix2 p q)) 1) := by
    funext ax
    match ax with
    | ⟨0, _⟩ => exact e0
    | ⟨1, _⟩ => rfl
  rw [ey]
  exact (Grows_eq_scale_slab v a d p i q _ (by show off + 1 * q.val = i.val * 1089 + q.val; omega)).symm

end Cert.Trilinear

end
-- ==== Proof.Block.lean ====
/-
  What one grid point's body leaves in its output block, on the extended reals.

  The body loads a block of 64 rows of each padded input, v, a and d : [64, 33].  Its first 33
  stores fill the slab [64, 1089] with a(p,j) · d(p,k) at column j·33 + k; it reads the slab back
  whole; its last 33 stores fill the output block [64, 35937] with v(p,i) · slab(p, q) at column
  i·1089 + q.  So the block ends holding v(p,i) · (a(p,j) · d(p,k)) at (p, i·1089 + j·33 + k): the
  rows' form of the trilinear product (Spec), here called `Grows v a d`.

  Each buffer is read as the one function all of its stores agree with (a store through columns
  [o, o + width) holds that function's values there), which needs only that the stores tile the buffer.
-/
import proofs.«174437_j67920612819047_2_alg».proof.Proof.Gen.KernelIdeal.Frame
import proofs.«174437_j67920612819047_2_alg».proof.Proof.Pieces

set_option maxRecDepth 16384

noncomputable section

namespace Cert.KernelIdeal.BlockValue

open Cert.KernelIdeal Cert.KernelIdeal.Gen Cert.Trilinear Cert.LibColumnScale
open Idealize.ShloMosaic Idealize.ShloMosaic.TcCoe Idealize.ShloMosaic.Tactic Idealize.ShloMosaic.ValueIdx Idealize.SL.Sem

/-- Every store's value, opened down to the vector operations; a cast of a block to its own shape is dropped. -/
macro "open_payloads" : tactic =>
  `(tactic| simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, shapeCast_self])

/-- The block of v as the body uses it is the block loaded. -/
theorem loaded_v (c : Dev nD) (arg1 : Memref sig .tc .vmem S64x33 .f32) (harg1 : arg1.IsWhole) (x0 : Vec Ideal S64x33 .f32) :
    kernelRun0_A.sl.r (F := Ideal) c arg1 harg1 x0 = x0 := by
  unfold kernelRun0_A.sl.r k0_pay1
  simp only [View.readAt_eq_ld, harg1.read_unread, View.ld_unit_zero (S := S64x33) zero_offsets, shapeCast_self]

/-- The 33 stores into the slab tile it. -/
theorem slab_cover (c : Dev nD) (arg2 : Memref sig .tc .vmem S64x33 .f32) (harg2 : arg2.IsWhole) (arg3 : Memref sig .tc .vmem S64x33 .f32) (harg3 : arg3.IsWhole)
    (x1 x2 : Vec Ideal S64x33 .f32) (y : S64x1089.Idx) :
    ∃ pc ∈ kernelRun0_A.sl.HS0_33 (F := Ideal) c arg2 harg2 arg3 harg3 x1 x2, y ∈ pc.1.set :=
  View.cover_of_tiledL (kernelRun0_A.sl.HS0_33 (F := Ideal) c arg2 harg2 arg3 harg3 x1 x2) S64x33.size (by sl_kernel_rfl) y

/-- Store j into the slab holds a(p,j) · d(p,k) at its columns: every store agrees with the slab. -/
theorem slab_stores (c : Dev nD) (arg2 : Memref sig .tc .vmem S64x33 .f32) (harg2 : arg2.IsWhole) (arg3 : Memref sig .tc .vmem S64x33 .f32) (harg3 : arg3.IsWhole)
    (x1 x2 : Vec Ideal S64x33 .f32) :
    ∀ pc ∈ kernelRun0_A.sl.HS0_33 (F := Ideal) c arg2 harg2 arg3 harg3 x1 x2, ∀ x : pc.1.shape.Idx, pc.2 x = slab x1 x2 (pc.1.emb x) := by
  unfold kernelRun0_A.sl.HS0_33
  sl_unfold_run_names
  simp only [View.readAt_eq_ld, harg2.read_unread, harg3.read_unread, View.ld_unit_zero (S := S64x33) zero_offsets]
  repeat' (refine List.forall_mem_cons.mpr ⟨?_, ?_⟩)
  · exact slab_piece 1056 ⟨32, by decide⟩ rfl inb_S64x1089_S64x33_0_1056 x1 x2 _ (fun p k => by open_payloads; exact column_scale_apply 32 (by decide) x1 x2 _ _ (by decide) p k)
  · exact slab_piece 1023 ⟨31, by decide⟩ rfl inb_S64x1089_S64x33_0_1023 x1 x2 _ (fun p k => by open_payloads; exact column_scale_apply 31 (by decide) x1 x2 _ _ (by decide) p k)
  · exact slab_piece 990 ⟨30, by decide⟩ rfl inb_S64x1089_S64x33_0_990 x1 x2 _ (fun p k => by open_payloads; exact column_scale_apply 30 (by decide) x1 x2 _ _ (by decide) p k)
  · exact slab_piece 957 ⟨29, by decide⟩ rfl inb_S64x1089_S64x33_0_957 x1 x2 _ (fun p k => by open_payloads; exact column_scale_apply 29 (by decide) x1 x2 _ _ (by decide) p k)
  · exact slab_piece 924 ⟨28, by decide⟩ rfl inb_S64x1089_S64x33_0_924 x1 x2 _ (fun p k => by open_payloads; exact column_scale_apply 28 (by decide) x1 x2 _ _ (by decide) p k)
  · exact slab_piece 891 ⟨27, by decide⟩ rfl inb_S64x1089_S64x33_0_891 x1 x2 _ (fun p k => by open_payloads; exact column_scale_apply 27 (by decide) x1 x2 _ _ (by decide) p k)
  · exact slab_piece 858 ⟨26, by decide⟩ rfl inb_S64x1089_S64x33_0_858 x1 x2 _ (fun p k => by open_payloads; exact column_scale_apply 26 (by decide) x1 x2 _ _ (by decide) p k)
  · exact slab_piece 825 ⟨25, by decide⟩ rfl inb_S64x1089_S64x33_0_825 x1 x2 _ (fun p k => by open_payloads; exact column_scale_apply 25 (by decide) x1 x2 _ _ (by decide) p k)
  · exact slab_piece 792 ⟨24, by decide⟩ rfl inb_S64x1089_S64x33_0_792 x1 x2 _ (fun p k => by open_payloads; exact column_scale_apply 24 (by decide) x1 x2 _ _ (by decide) p k)
  · exact slab_piece 759 ⟨23, by decide⟩ rfl inb_S64x1089_S64x33_0_759 x1 x2 _ (fun p k => by open_payloads; exact column_scale_apply 23 (by decide) x1 x2 _ _ (by decide) p k)
  · exact slab_piece 726 ⟨22, by decide⟩ rfl inb_S64x1089_S64x33_0_726 x1 x2 _ (fun p k => by open_payloads; exact column_scale_apply 22 (by decide) x1 x2 _ _ (by decide) p k)
  · exact slab_piece 693 ⟨21, by decide⟩ rfl inb_S64x1089_S64x33_0_693 x1 x2 _ (fun p k => by open_payloads; exact column_scale_apply 21 (by decide) x1 x2 _ _ (by decide) p k)
  · exact slab_piece 660 ⟨20, by decide⟩ rfl inb_S64x1089_S64x33_0_660 x1 x2 _ (fun p k => by open_payloads; exact column_scale_apply 20 (by decide) x1 x2 _ _ (by decide) p k)
  · exact slab_piece 627 ⟨19, by decide⟩ rfl inb_S64x1089_S64x33_0_627 x1 x2 _ (fun p k => by open_payloads; exact column_scale_apply 19 (by decide) x1 x2 _ _ (by decide) p k)
  · exact slab_piece 594 ⟨18, by decide⟩ rfl inb_S64x1089_S64x33_0_594 x1 x2 _ (fun p k => by open_payloads; exact column_scale_apply 18 (by decide) x1 x2 _ _ (by decide) p k)
  · exact slab_piece 561 ⟨17, by decide⟩ rfl inb_S64x1089_S64x33_0_561 x1 x2 _ (fun p k => by open_payloads; exact column_scale_apply 17 (by decide) x1 x2 _ _ (by decide) p k)
  · exact slab_piece 528 ⟨16, by decide⟩ rfl inb_S64x1089_S64x33_0_528 x1 x2 _ (fun p k => by open_payloads; exact column_scale_apply 16 (by decide) x1 x2 _ _ (by decide) p k)
  · exact slab_piece 495 ⟨15, by decide⟩ rfl inb_S64x1089_S64x33_0_495 x1 x2 _ (fun p k => by open_payloads; exact column_scale_apply 15 (by decide) x1 x2 _ _ (by decide) p k)
  · exact slab_piece 462 ⟨14, by decide⟩ rfl inb_S64x1089_S64x33_0_462 x1 x2 _ (fun p k => by open_payloads; exact column_scale_apply 14 (by decide) x1 x2 _ _ (by decide) p k)
  · exact slab_piece 429 ⟨13, by decide⟩ rfl inb_S64x1089_S64x33_0_429 x1 x2 _ (fun p k => by open_payloads; exact column_scale_apply 13 (by decide) x1 x2 _ _ (by decide) p k)
  · exact slab_piece 396 ⟨12, by decide⟩ rfl inb_S64x1089_S64x33_0_396 x1 x2 _ (fun p k => by open_payloads; exact column_scale_apply 12 (by decide) x1 x2 _ _ (by decide) p k)
  · exact slab_piece 363 ⟨11, by decide⟩ rfl inb_S64x1089_S64x33_0_363 x1 x2 _ (fun p k => by open_payloads; exact column_scale_apply 11 (by decide) x1 x2 _ _ (by decide) p k)
  · exact slab_piece 330 ⟨10, by decide⟩ rfl inb_S64x1089_S64x33_0_330 x1 x2 _ (fun p k => by open_payloads; exact column_scale_apply 10 (by decide) x1 x2 _ _ (by decide) p k)
  · exact slab_piece 297 ⟨9, by decide⟩ rfl inb_S64x1089_S64x33_0_297 x1 x2 _ (fun p k => by open_payloads; exact column_scale_apply 9 (by decide) x1 x2 _ _ (by decide) p k)
  · exact slab_piece 264 ⟨8, by decide⟩ rfl inb_S64x1089_S64x33_0_264 x1 x2 _ (fun p k => by open_payloads; exact column_scale_apply 8 (by decide) x1 x2 _ _ (by decide) p k)
  · exact slab_piece 231 ⟨7, by decide⟩ rfl inb_S64x1089_S64x33_0_231 x1 x2 _ (fun p k => by open_payloads; exact column_scale_apply 7 (by decide) x1 x2 _ _ (by decide) p k)
  · exact slab_piece 198 ⟨6, by decide⟩ rfl inb_S64x1089_S64x33_0_198 x1 x2 _ (fun p k => by open_payloads; exact column_scale_apply 6 (by decide) x1 x2 _ _ (by decide) p k)
  · exact slab_piece 165 ⟨5, by decide⟩ rfl inb_S64x1089_S64x33_0_165 x1 x2 _ (fun p k => by open_payloads; exact column_scale_apply 5 (by decide) x1 x2 _ _ (by decide) p k)
  · exact slab_piece 132 ⟨4, by decide⟩ rfl inb_S64x1089_S64x33_0_132 x1 x2 _ (fun p k => by open_payloads; exact column_scale_apply 4 (by decide) x1 x2 _ _ (by decide) p k)
  · exact slab_piece 99 ⟨3, by decide⟩ rfl inb_S64x1089_S64x33_0_99 x1 x2 _ (fun p k => by open_payloads; exact column_scale_apply 3 (by decide) x1 x2 _ _ (by decide) p k)
  · exact slab_piece 66 ⟨2, by decide⟩ rfl inb_S64x1089_S64x33_0_66 x1 x2 _ (fun p k => by open_payloads; exact column_scale_apply 2 (by decide) x1 x2 _ _ (by decide) p k)
  · exact slab_piece 33 ⟨1, by decide⟩ rfl inb_S64x1089_S64x33_0_33 x1 x2 _ (fun p k => by open_payloads; exact column_scale_apply 1 (by decide) x1 x2 _ _ (by decide) p k)
  · exact slab_piece 0 ⟨0, by decide⟩ rfl inb_S64x1089_S64x33_0_0 x1 x2 _ (fun p k => by open_payloads; exact column_scale_apply 0 (by decide) x1 x2 _ _ (by decide) p k)
  · exact fun _ h => absurd h List.not_mem_nil

/-- The slab read back whole is a(p,j) · d(p,k) at (p, j·33 + k). -/
theorem slab_value (c : Dev nD) (arg2 : Memref sig .tc .vmem S64x33 .f32) (harg2 : arg2.IsWhole) (arg3 : Memref sig .tc .vmem S64x33 .f32) (harg3 : arg3.IsWhole)
    (arg5 : Memref sig .tc .vmem S64x1089 .f32) (x1 x2 : Vec Ideal S64x33 .f32) :
    kernelRun0_A.sl.v204 (F := Ideal) c arg2 harg2 arg3 harg3 arg5 x1 x2 = slab x1 x2 := by
  funext y
  unfold kernelRun0_A.sl.v204
  rw [View.readCov_eq_canon_ld _ _ _ (slab_cover c arg2 harg2 arg3 harg3 x1 x2), View.ld_unit_zero (S := S64x1089) zero_offsets]
  exact View.canon_apply_of_pieces (slab x1 x2) _ (slab_stores c arg2 harg2 arg3 harg3 x1 x2) y (slab_cover c arg2 harg2 arg3 harg3 x1 x2 y)

/-- Store i into the output block holds v(p,i) · slab(p,q) at its columns: every store agrees with the rows' result. -/
theorem chunk_stores (c : Dev nD) (i : grid0.Coords) (arg1 : Memref sig .tc .vmem S64x33 .f32) (harg1 : arg1.IsWhole) (arg2 : Memref sig .tc .vmem S64x33 .f32) (harg2 : arg2.IsWhole) (arg3 : Memref sig .tc .vmem S64x33 .f32) (harg3 : arg3.IsWhole) (arg4 : Memref sig .tc .vmem S64x35937 .f32) (harg4 : arg4.IsWhole) (arg5 : Memref sig .tc .vmem S64x1089 .f32) (harg5 : arg5.IsWhole)
    (x0 x1 x2 : Vec Ideal S64x33 .f32) :
    ∀ pc ∈ (kernelRun0_A (F := Ideal) c i arg1 harg1 arg2 harg2 arg3 harg3 arg4 harg4 arg5 harg5 x0 x1 x2).1,
      ∀ x : pc.1.shape.Idx, pc.2 x = Grows x0 x1 x2 (pc.1.emb x) := by
  unfold kernelRun0_A
  dsimp only
  simp only [kernelRun0_A.sl.r_8, kernelRun0_A.sl.r_9, kernelRun0_A.sl.r_10, kernelRun0_A.sl.r_11, loaded_v, slab_value]
  repeat' (refine List.forall_mem_cons.mpr ⟨?_, ?_⟩)
  · exact chunk_piece 34848 ⟨32, by decide⟩ rfl inb_S64x35937_S64x1089_0_34848 x0 x1 x2 _ (fun p q => by open_payloads; exact column_scale_apply 32 (by decide) x0 (slab x1 x2) _ _ (by decide) p q)
  · exact chunk_piece 33759 ⟨31, by decide⟩ rfl inb_S64x35937_S64x1089_0_33759 x0 x1 x2 _ (fun p q => by open_payloads; exact column_scale_apply 31 (by decide) x0 (slab x1 x2) _ _ (by decide) p q)
  · exact chunk_piece 32670 ⟨30, by decide⟩ rfl inb_S64x35937_S64x1089_0_32670 x0 x1 x2 _ (fun p q => by open_payloads; exact column_scale_apply 30 (by decide) x0 (slab x1 x2) _ _ (by decide) p q)
  · exact chunk_piece 31581 ⟨29, by decide⟩ rfl inb_S64x35937_S64x1089_0_31581 x0 x1 x2 _ (fun p q => by open_payloads; exact column_scale_apply 29 (by decide) x0 (slab x1 x2) _ _ (by decide) p q)
  · exact chunk_piece 30492 ⟨28, by decide⟩ rfl inb_S64x35937_S64x1089_0_30492 x0 x1 x2 _ (fun p q => by open_payloads; exact column_scale_apply 28 (by decide) x0 (slab x1 x2) _ _ (by decide) p q)
  · exact chunk_piece 29403 ⟨27, by decide⟩ rfl inb_S64x35937_S64x1089_0_29403 x0 x1 x2 _ (fun p q => by open_payloads; exact column_scale_apply 27 (by decide) x0 (slab x1 x2) _ _ (by decide) p q)
  · exact chunk_piece 28314 ⟨26, by decide⟩ rfl inb_S64x35937_S64x1089_0_28314 x0 x1 x2 _ (fun p q => by open_payloads; exact column_scale_apply 26 (by decide) x0 (slab x1 x2) _ _ (by decide) p q)
  · exact chunk_piece 27225 ⟨25, by decide⟩ rfl inb_S64x35937_S64x1089_0_27225 x0 x1 x2 _ (fun p q => by open_payloads; exact column_scale_apply 25 (by decide) x0 (slab x1 x2) _ _ (by decide) p q)
  · exact chunk_piece 26136 ⟨24, by decide⟩ rfl inb_S64x35937_S64x1089_0_26136 x0 x1 x2 _ (fun p q => by open_payloads; exact column_scale_apply 24 (by decide) x0 (slab x1 x2) _ _ (by decide) p q)
  · exact chunk_piece 25047 ⟨23, by decide⟩ rfl inb_S64x35937_S64x1089_0_25047 x0 x1 x2 _ (fun p q => by open_payloads; exact column_scale_apply 23 (by decide) x0 (slab x1 x2) _ _ (by decide) p q)
  · exact chunk_piece 23958 ⟨22, by decide⟩ rfl inb_S64x35937_S64x1089_0_23958 x0 x1 x2 _ (fun p q => by open_payloads; exact column_scale_apply 22 (by decide) x0 (slab x1 x2) _ _ (by decide) p q)
  · exact chunk_piece 22869 ⟨21, by decide⟩ rfl inb_S64x35937_S64x1089_0_22869 x0 x1 x2 _ (fun p q => by open_payloads; exact column_scale_apply 21 (by decide) x0 (slab x1 x2) _ _ (by decide) p q)
  · exact chunk_piece 21780 ⟨20, by decide⟩ rfl inb_S64x35937_S64x1089_0_21780 x0 x1 x2 _ (fun p q => by open_payloads; exact column_scale_apply 20 (by decide) x0 (slab x1 x2) _ _ (by decide) p q)
  · exact chunk_piece 20691 ⟨19, by decide⟩ rfl inb_S64x35937_S64x1089_0_20691 x0 x1 x2 _ (fun p q => by open_payloads; exact column_scale_apply 19 (by decide) x0 (slab x1 x2) _ _ (by decide) p q)
  · exact chunk_piece 19602 ⟨18, by decide⟩ rfl inb_S64x35937_S64x1089_0_19602 x0 x1 x2 _ (fun p q => by open_payloads; exact column_scale_apply 18 (by decide) x0 (slab x1 x2) _ _ (by decide) p q)
  · exact chunk_piece 18513 ⟨17, by decide⟩ rfl inb_S64x35937_S64x1089_0_18513 x0 x1 x2 _ (fun p q => by open_payloads; exact column_scale_apply 17 (by decide) x0 (slab x1 x2) _ _ (by decide) p q)
  · exact chunk_piece 17424 ⟨16, by decide⟩ rfl inb_S64x35937_S64x1089_0_17424 x0 x1 x2 _ (fun p q => by open_payloads; exact column_scale_apply 16 (by decide) x0 (slab x1 x2) _ _ (by decide) p q)
  · exact chunk_piece 16335 ⟨15, by decide⟩ rfl inb_S64x35937_S64x1089_0_16335 x0 x1 x2 _ (fun p q => by open_payloads; exact column_scale_apply 15 (by decide) x0 (slab x1 x2) _ _ (by decide) p q)
  · exact chunk_piece 15246 ⟨14, by decide⟩ rfl inb_S64x35937_S64x1089_0_15246 x0 x1 x2 _ (fun p q => by open_payloads; exact column_scale_apply 14 (by decide) x0 (slab x1 x2) _ _ (by decide) p q)
  · exact chunk_piece 14157 ⟨13, by decide⟩ rfl inb_S64x35937_S64x1089_0_14157 x0 x1 x2 _ (fun p q => by open_payloads; exact column_scale_apply 13 (by decide) x0 (slab x1 x2) _ _ (by decide) p q)
  · exact chunk_piece 13068 ⟨12, by decide⟩ rfl inb_S64x35937_S64x1089_0_13068 x0 x1 x2 _ (fun p q => by open_payloads; exact column_scale_apply 12 (by decide) x0 (slab x1 x2) _ _ (by decide) p q)
  · exact chunk_piece 11979 ⟨11, by decide⟩ rfl inb_S64x35937_S64x1089_0_11979 x0 x1 x2 _ (fun p q => by open_payloads; exact column_scale_apply 11 (by decide) x0 (slab x1 x2) _ _ (by decide) p q)
  · exact chunk_piece 10890 ⟨10, by decide⟩ rfl inb_S64x35937_S64x1089_0_10890 x0 x1 x2 _ (fun p q => by open_payloads; exact column_scale_apply 10 (by decide) x0 (slab x1 x2) _ _ (by decide) p q)
  · exact chunk_piece 9801 ⟨9, by decide⟩ rfl inb_S64x35937_S64x1089_0_9801 x0 x1 x2 _ (fun p q => by open_payloads; exact column_scale_apply 9 (by decide) x0 (slab x1 x2) _ _ (by decide) p q)
  · exact chunk_piece 8712 ⟨8, by decide⟩ rfl inb_S64x35937_S64x1089_0_8712 x0 x1 x2 _ (fun p q => by open_payloads; exact column_scale_apply 8 (by decide) x0 (slab x1 x2) _ _ (by decide) p q)
  · exact chunk_piece 7623 ⟨7, by decide⟩ rfl inb_S64x35937_S64x1089_0_7623 x0 x1 x2 _ (fun p q => by open_payloads; exact column_scale_apply 7 (by decide) x0 (slab x1 x2) _ _ (by decide) p q)
  · exact chunk_piece 6534 ⟨6, by decide⟩ rfl inb_S64x35937_S64x1089_0_6534 x0 x1 x2 _ (fun p q => by open_payloads; exact column_scale_apply 6 (by decide) x0 (slab x1 x2) _ _ (by decide) p q)
  · exact chunk_piece 5445 ⟨5, by decide⟩ rfl inb_S64x35937_S64x1089_0_5445 x0 x1 x2 _ (fun p q => by open_payloads; exact column_scale_apply 5 (by decide) x0 (slab x1 x2) _ _ (by decide) p q)
  · exact chunk_piece 4356 ⟨4, by decide⟩ rfl inb_S64x35937_S64x1089_0_4356 x0 x1 x2 _ (fun p q => by open_payloads; exact column_scale_apply 4 (by decide) x0 (slab x1 x2) _ _ (by decide) p q)
  · exact chunk_piece 3267 ⟨3, by decide⟩ rfl inb_S64x35937_S64x1089_0_3267 x0 x1 x2 _ (fun p q => by open_payloads; exact column_scale_apply 3 (by decide) x0 (slab x1 x2) _ _ (by decide) p q)
  · exact chunk_piece 2178 ⟨2, by decide⟩ rfl inb_S64x35937_S64x1089_0_2178 x0 x1 x2 _ (fun p q => by open_payloads; exact column_scale_apply 2 (by decide) x0 (slab x1 x2) _ _ (by decide) p q)
  · exact chunk_piece 1089 ⟨1, by decide⟩ rfl inb_S64x35937_S64x1089_0_1089 x0 x1 x2 _ (fun p q => by open_payloads; exact column_scale_apply 1 (by decide) x0 (slab x1 x2) _ _ (by decide) p q)
  · exact chunk_piece 0 ⟨0, by decide⟩ rfl inb_S64x35937_S64x1089_0_0 x0 x1 x2 _ (fun p q => by open_payloads; exact column_scale_apply 0 (by decide) x0 (slab x1 x2) _ _ (by decide) p q)
  · exact fun _ h => absurd h List.not_mem_nil

/-- THE BLOCK: what the body leaves in the output's staging buffer is the rows' result of the three blocks loaded. -/
theorem block_value (c : Dev nD) (i : grid0.Coords) (arg1 : Memref sig .tc .vmem S64x33 .f32) (harg1 : arg1.IsWhole) (arg2 : Memref sig .tc .vmem S64x33 .f32) (harg2 : arg2.IsWhole) (arg3 : Memref sig .tc .vmem S64x33 .f32) (harg3 : arg3.IsWhole) (arg4 : Memref sig .tc .vmem S64x35937 .f32) (harg4 : arg4.IsWhole) (arg5 : Memref sig .tc .vmem S64x1089 .f32) (harg5 : arg5.IsWhole)
    (x0 x1 x2 : Vec Ideal S64x33 .f32) :
    out0_A_3 (F := Ideal) c i arg1 harg1 arg2 harg2 arg3 harg3 arg4 harg4 arg5 harg5 x0 x1 x2 = Grows x0 x1 x2 := by
  funext y
  unfold out0_A_3
  exact View.read_writes_apply_of_pieces VO0_3 VO0_3.junk (Grows x0 x1 x2) _
    (chunk_stores c i arg1 harg1 arg2 harg2 arg3 harg3 arg4 harg4 arg5 harg5 x0 x1 x2) y
    (cover0_A_3 c i arg1 harg1 arg2 harg2 arg3 harg3 arg4 harg4 arg5 harg5 x0 x1 x2 y)

end Cert.KernelIdeal.BlockValue

end
-- ==== Proof.Rows.lean ====
/-
  From blocks to the array: the call's result [3200, 35937], as one function of the three row arrays
  [3200, 33] the call is given.

  The grid has 50 points; at point t every window's block is rows [64 t, 64 t + 64) and all the columns
  of its array.  The body turns the three input blocks into the rows' trilinear product of those blocks
  (Block), which is the block of the rows' trilinear product of the whole arrays, since row p of block t
  is row 64 t + p of the array.  The 50 output blocks tile the 3200 rows, so the array ends holding
  v(r,i) · (a(r,j) · d(r,k)) at (r, i·1089 + j·33 + k).
-/
import proofs.«174437_j67920612819047_2_alg».proof.Proof.Block
import Idealize.ShloMosaic.Lib.Pipeline.Value

set_option maxRecDepth 16384

noncomputable section

namespace Cert.KernelIdeal.RowsValue

open Cert.KernelIdeal Cert.KernelIdeal.Gen Cert.Trilinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- At grid point t every window's block index is (t, 0): rows from 64 t, all the columns. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The three row arrays as the call finds them. -/
abbrev rowsV (c : Dev nD) : S3200x33.Idx → Elt Ideal .f32 := V m c main_v2
abbrev rowsA (c : Dev nD) : S3200x33.Idx → Elt Ideal .f32 := V m c main_v5
abbrev rowsD (c : Dev nD) : S3200x33.Idx → Elt Ideal .f32 := V m c main_v8

/-- The call's result: the rows' trilinear product of the three row arrays. -/
abbrev rowsResult (c : Dev nD) : Buf (Elt Ideal) ((c : Thread nD τ).loc main_v9) := Grows (rowsV m c) (rowsA m c) (rowsD m c)

/-- Row p of the block of v at point t is row 64 t + p of the array. -/
theorem block_v (c : Dev nD) (t : Fin cfg0.N) (p : Fin 64) (k : Fin 33) (r : Fin 3200) (hr : r.val = t.val * 64 + p.val) :
    iblk m c 0 t (ix2 p k) = rowsV m c (ix2 r k) := by
  obtain ⟨e0, e1, -⟩ := index_facts t
  show rowsV m c (((cfg0.win 0).blk t).view.emb (ix2 p k)) = rowsV m c (ix2 r k)
  refine congrArg (rowsV m c) (funext fun a => Fin.ext ?_)
  match a with
  | ⟨0, _⟩ => show win0_0.index t (0 : Fin 2) * 64 + 1 * p.val = r.val; rw [e0, hr]; omega
  | ⟨1, _⟩ => show win0_0.index t (1 : Fin 2) * 33 + 1 * k.val = k.val; rw [e1]; omega

/-- Row p of the block of a at point t is row 64 t + p of the array. -/
theorem block_a (c : Dev nD) (t : Fin cfg0.N) (p : Fin 64) (k : Fin 33) (r : Fin 3200) (hr : r.val = t.val * 64 + p.val) :
    iblk m c 1 t (ix2 p k) = rowsA m c (ix2 r k) := by
  obtain ⟨-, -, e0, e1, -⟩ := index_facts t
  show rowsA m c (((cfg0.win 1).blk t).view.emb (ix2 p k)) = rowsA m c (ix2 r k)
  refine congrArg (rowsA m c) (funext fun a => Fin.ext ?_)
  match a with
  | ⟨0, _⟩ => show win0_1.index t (0 : Fin 2) * 64 + 1 * p.val = r.val; rw [e0, hr]; omega
  | ⟨1, _⟩ => show win0_1.index t (1 : Fin 2) * 33 + 1 * k.val = k.val; rw [e1]; omega

/-- Row p of the block of d at point t is row 64 t + p of the array. -/
theorem block_d (c : Dev nD) (t : Fin cfg0.N) (p : Fin 64) (k : Fin 33) (r : Fin 3200) (hr : r.val = t.val * 64 + p.val) :
    iblk m c 2 t (ix2 p k) = rowsD m c (ix2 r k) := by
  obtain ⟨-, -, -, -, e0, e1, -⟩ := index_facts t
  show rowsD m c (((cfg0.win 2).blk t).view.emb (ix2 p k)) = rowsD m c (ix2 r k)
  refine congrArg (rowsD m c) (funext fun a => Fin.ext ?_)
  match a with
  | ⟨0, _⟩ => show win0_2.index t (0 : Fin 2) * 64 + 1 * p.val = r.val; rw [e0, hr]; omega
  | ⟨1, _⟩ => show win0_2.index t (1 : Fin 2) * 33 + 1 * k.val = k.val; rw [e1]; omega

/-- The rows' product of three blocks whose row p is row r of three arrays is, at row p, the arrays' at row r. -/
theorem Grows_of_rows (Vv Va Vd : S3200x33.Idx → EReal) (b0 b1 b2 : S64x33.Idx → EReal) (p : Fin 64) (r : Fin 3200)
    (h0 : ∀ k : Fin 33, b0 (ix2 p k) = Vv (ix2 r k)) (h1 : ∀ k : Fin 33, b1 (ix2 p k) = Va (ix2 r k))
    (h2 : ∀ k : Fin 33, b2 (ix2 p k) = Vd (ix2 r k)) (f : Fin 35937) :
    Grows b0 b1 b2 (ix2 p f) = Grows Vv Va Vd (ix2 r f) := by
  show b0 (ix2 p (fi f)) * (b1 (ix2 p (fj f)) * b2 (ix2 p (fk f))) = Vv (ix2 r (fi f)) * (Va (ix2 r (fj f)) * Vd (ix2 r (fk f)))
  rw [h0, h1, h2]

/-- WHAT POINT t WRITES BACK is block t of the rows' product of the arrays. -/
theorem flushed_eq (c : Dev nD) (t : Fin cfg0.N) (hf : (cfg0.win 3).flush t = true) :
    (dats m 0 c).flushed 3 t = ((cfg0.win 3).blk t).view.read (Elt Ideal) (rowsResult m c) := by
  have hN : cfg0.N = 50 := N_0
  have ht : t.val < 50 := hN ▸ t.isLt
  obtain ⟨-, -, -, -, -, -, e0, e1⟩ := index_facts t
  show (cfg0.win 3).cut (grid0.coords t) ((dats m 0 c).after 3 t) = _
  rw [after0_3]
  unfold outsAt0
  rw [BlockValue.block_value c (grid0.coords t) (ms0_0 t) (hs0_0 t) (ms0_1 t) (hs0_1 t) (ms0_2 t) (hs0_2 t) (ms0_3 t) (hs0_3 t)
    scM0_0 (Memref.isWhole_whole _) (iblk m c 0 t) (iblk m c 1 t) (iblk m c 2 t)]
  funext j
  have hj0 : (j 0).val < 64 := (j 0).isLt
  have hj1 : (j 1).val < 35937 := (j 1).isLt
  show Grows (iblk m c 0 t) (iblk m c 1 t) (iblk m c 2 t) (ix2 (⟨(j 0).val, hj0⟩ : Fin 64) (⟨(j 1).val, hj1⟩ : Fin 35937))
    = Grows (rowsV m c) (rowsA m c) (rowsD m c) (((cfg0.win 3).blk t).view.emb j)
  have hE : ((cfg0.win 3).blk t).view.emb j
      = ix2 (⟨t.val * 64 + (j 0).val, by omega⟩ : Fin 3200) (⟨(j 1).val, hj1⟩ : Fin 35937) := by
    funext a
    apply Fin.ext
    match a with
    | ⟨0, _⟩ => show win0_3.index t (0 : Fin 2) * 64 + 1 * (j 0).val = t.val * 64 + (j 0).val; rw [e0]; omega
    | ⟨1, _⟩ => show win0_3.index t (1 : Fin 2) * 35937 + 1 * (j 1).val = (j 1).val; rw [e1]; omega
  rw [hE]
  exact Grows_of_rows (rowsV m c) (rowsA m c) (rowsD m c) (iblk m c 0 t) (iblk m c 1 t) (iblk m c 2 t) ⟨(j 0).val, hj0⟩
    ⟨t.val * 64 + (j 0).val, by omega⟩
    (fun k => block_v m c t _ k _ rfl) (fun k => block_a m c t _ k _ rfl) (fun k => block_d m c t _ k _ rfl) ⟨(j 1).val, hj1⟩

/-- An index of the array is in point t's block iff each coordinate is in the block's range on its axis. -/
theorem mem_block (t : Fin cfg0.N) (i : S3200x35937.Idx) :
    i ∈ ((cfg0.win 3).blk t).view.set ↔ ∀ a : Fin 2, win0_3.index t a * S64x35937.size a ≤ (i a).val
      ∧ (i a).val < win0_3.index t a * S64x35937.size a + S64x35937.size a := by
  show i ∈ ((View.whole main_v9).slice (win0_3.rect t)).set ↔ _
  rw [View.set_slice_whole, Rect.mem_set_unit]
  exact Iff.rfl

/-- Every row r is in the block of point r / 64. -/
theorem covered (i : S3200x35937.Idx) :
    ∃ t : Fin cfg0.N, (cfg0.win 3).flush t = true ∧ i ∈ ((cfg0.win 3).blk t).view.set := by
  have hi0 : (i 0).val < 3200 := (i 0).isLt
  have hi1 : (i 1).val < 35937 := (i 1).isLt
  have hN : cfg0.N = 50 := N_0
  have hlt : (i 0).val / 64 < cfg0.N := hN ▸ (by omega : (i 0).val / 64 < 50)
  refine ⟨⟨(i 0).val / 64, hlt⟩, flush0_3 _, ?_⟩
  rw [mem_block]
  obtain ⟨-, -, -, -, -, -, e0, e1⟩ := index_facts ⟨(i 0).val / 64, hlt⟩
  intro a
  match a with
  | ⟨0, _⟩ =>
    show win0_3.index ⟨(i 0).val / 64, hlt⟩ (0 : Fin 2) * 64 ≤ (i 0).val
      ∧ (i 0).val < win0_3.index ⟨(i 0).val / 64, hlt⟩ (0 : Fin 2) * 64 + 64
    rw [e0]; show (i 0).val / 64 * 64 ≤ (i 0).val ∧ (i 0).val < (i 0).val / 64 * 64 + 64; omega
  | ⟨1, _⟩ =>
    show win0_3.index ⟨(i 0).val / 64, hlt⟩ (1 : Fin 2) * 35937 ≤ (i 1).val
      ∧ (i 1).val < win0_3.index ⟨(i 0).val / 64, hlt⟩ (1 : Fin 2) * 35937 + 35937
    rw [e1]; omega

/-- THE ARRAY after the call: the rows' trilinear product of the three row arrays. -/
theorem final (c : Dev nD) : (dats m 0 c).arrAt 3 cfg0.N = rowsResult m c :=
  (dats m 0 c).arrAt_eq_of_cover 3 (rowsResult m c) (flushed_eq m c) covered

end Cert.KernelIdeal.RowsValue

end
-- ==== Proof.KernelValue.lean ====
/-
  The idealized kernel's result, as one function of its three inputs.

  Before the call, each input x : [64, 50, 32] is padded with a leading column of ones to [64, 50, 33]
  and laid out as rows [3200, 33], row b·50 + t being (b, t).  The call turns the three row arrays into
  v(r,i) · (a(r,j) · d(r,k)) at (r, i·1089 + j·33 + k) (Rows).  After the call the rows [3200, 35937]
  are laid back as [64, 50, 35937].  So the result at (b, t, i·1089 + j·33 + k) is
  V(b,t,i) · (A(b,t,j) · D(b,t,k)) of the padded inputs V, A, D: the function `G` of Spec.
-/
import proofs.«174437_j67920612819047_2_alg».proof.Proof.Rows
import Idealize.ShloMosaic.Lib.StableHlo.Run

set_option maxRecDepth 16384

noncomputable section

namespace Cert.KernelIdeal.KernelValue

open Cert.KernelIdeal Cert.KernelIdeal.Gen Cert.KernelIdeal.RowsValue Cert.Trilinear
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- An input padded: a column of ones joined before it along the last axis. -/
abbrev pad (x : S64x50x32.Idx → Elt Ideal .f32) : S64x50x33.Idx → Elt Ideal .f32 :=
  concatenate S64x50x33 2 [⟨S64x50x1, broadcastInDim S64x50x1 ![] Cert.KernelIdeal.Facts₀.bcast_S_S64x50x1 (constant (F := Ideal) S_ .f32 0x3F800000#32)⟩, ⟨S64x50x32, x⟩]
    Cert.KernelIdeal.Facts₀.concatenates_S64x50x1_S64x50x32_S64x50x33_d2

/-- The rows of v the call finds: the first input padded, as rows. -/
theorem rowsV_eq (c : Dev nD) :
    rowsV m c = shapeCast S3200x33 (pad (m ((c : Thread nD τ).loc main_arg0))) Cert.KernelIdeal.Facts₀.shapeCasts_S64x50x33_S3200x33 := by
  show StableHlo.after hostOps0 (fun b => m (c, b)) (Proc.devRef .tc main_v2) = _
  after_results
  rfl

/-- The rows of a: the second input padded, as rows. -/
theorem rowsA_eq (c : Dev nD) :
    rowsA m c = shapeCast S3200x33 (pad (m ((c : Thread nD τ).loc main_arg1))) Cert.KernelIdeal.Facts₀.shapeCasts_S64x50x33_S3200x33 := by
  show StableHlo.after hostOps0 (fun b => m (c, b)) (Proc.devRef .tc main_v5) = _
  after_results
  rfl

/-- The rows of d: the third input padded, as rows. -/
theorem rowsD_eq (c : Dev nD) :
    rowsD m c = shapeCast S3200x33 (pad (m ((c : Thread nD τ).loc main_arg2))) Cert.KernelIdeal.Facts₀.shapeCasts_S64x50x33_S3200x33 := by
  show StableHlo.after hostOps0 (fun b => m (c, b)) (Proc.devRef .tc main_v8) = _
  after_results
  rfl

/-- Row b·50 + t of a [64, 50, 33] array laid out as rows is its (b, t). -/
theorem rows_apply (X : S64x50x33.Idx → Elt Ideal .f32) (b : Fin 64) (t : Fin 50) (k : Fin 33) (r : Fin 3200)
    (hr : r.val = b.val * 50 + t.val) :
    shapeCast S3200x33 X Cert.KernelIdeal.Facts₀.shapeCasts_S64x50x33_S3200x33 (ix2 r k) = X (ix3 b t k) := by
  refine shapeCast_apply X _ (ix2 r k) (ix3 b t k) ?_
  rw [Shape.rowMajor_val_three, Shape.rowMajor_val_two]
  show (b.val * 50 + t.val) * 33 + k.val = r.val * 33 + k.val
  rw [hr]

/-- Rows laid back as [64, 50, 35937]: (b, t) is row b·50 + t. -/
theorem unrows_apply (X : S3200x35937.Idx → Elt Ideal .f32) (b : Fin 64) (t : Fin 50) (f : Fin 35937) (r : Fin 3200)
    (hr : r.val = b.val * 50 + t.val) :
    shapeCast S64x50x35937 X Cert.KernelIdeal.Facts₀.shapeCasts_S3200x35937_S64x50x35937 (ix3 b t f) = X (ix2 r f) := by
  refine shapeCast_apply X _ (ix3 b t f) (ix2 r f) ?_
  rw [Shape.rowMajor_val_three, Shape.rowMajor_val_two]
  show r.val * 35937 + f.val = (b.val * 50 + t.val) * 35937 + f.val
  rw [hr]

/-- After the call and the laying back: @main's result is the call's rows as [64, 50, 35937]. -/
theorem result_eq_rows (c : Dev nD) :
    Pipeline.afterTail₀ cfgs (dats m) 0 (V0 m) [hostOps1] c main_v10
      = shapeCast S64x50x35937 (rowsResult m c) Cert.KernelIdeal.Facts₀.shapeCasts_S3200x35937_S64x50x35937 := by
  unfold Pipeline.afterTail₀
  show StableHlo.after hostOps1 _ (Proc.devRef .tc main_v10) = _
  after_results
  rw [show Pipeline.withArrays (cfgs 0).spec c (V0 m c) (fun w => (dats m 0 c).arrAt w (cfgs 0).N) (Proc.devRef .tc main_v9)
      = rowsResult m c from (Pipeline.withArrays_arr spec0 launch0.win.arr_inj c _ _ 3).trans (final m c)]
  rfl

/-- THE KERNEL'S RESULT: the trilinear product of the three padded inputs. -/
theorem result_eq (c : Dev nD) :
    Pipeline.afterTail₀ cfgs (dats m) 0 (V0 m) [hostOps1] c main_v10
      = G (pad (m ((c : Thread nD τ).loc main_arg0))) (pad (m ((c : Thread nD τ).loc main_arg1))) (pad (m ((c : Thread nD τ).loc main_arg2))) := by
  rw [result_eq_rows]
  funext y
  obtain ⟨b, t, f, rfl⟩ : ∃ (b : Fin 64) (t : Fin 50) (f : Fin 35937), y = ix3 b t f := ⟨y 0, y 1, y 2, eq_ix3 y⟩
  have hr : b.val * 50 + t.val < 3200 := by have := b.isLt; have := t.isLt; omega
  rw [unrows_apply (rowsResult m c) b t f ⟨b.val * 50 + t.val, hr⟩ rfl]
  show rowsV m c (ix2 _ (fi f)) * (rowsA m c (ix2 _ (fj f)) * rowsD m c (ix2 _ (fk f)))
    = pad _ (ix3 b t (fi f)) * (pad _ (ix3 b t (fj f)) * pad _ (ix3 b t (fk f)))
  rw [rowsV_eq, rowsA_eq, rowsD_eq, rows_apply _ b t (fi f) _ rfl, rows_apply _ b t (fj f) _ rfl, rows_apply _ b t (fk f) _ rfl]

/-- THE RUN of the idealized kernel, read: its result at the trilinear product of the padded inputs, its inputs unchanged. -/
theorem run : θ_run defs (onTc (τ := τ) (main (F := Ideal))) ⟨m, fun _ => 0, ρ⟩ fun r => ∀ c : Dev nD,
      r.2.mem ((c.tc : Thread nD τ).loc main_v10)
        = G (pad (m ((c : Thread nD τ).loc main_arg0))) (pad (m ((c : Thread nD τ).loc main_arg1))) (pad (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.RefValue.lean ====
/-
  The reference's result is the trilinear product of the three padded inputs.

  The reference pads each input with a column of ones (the arrays called V, A, D here), lays V, A and D
  along three separate axes of a [64, 50, 33, 33, 33] array, multiplies (V · A) first and then by D, and
  flattens the last three axes: at (b, t, f) with f = i·1089 + j·33 + k it holds
  (V(b,t,i) · A(b,t,j)) · D(b,t,k), which is V(b,t,i) · (A(b,t,j) · D(b,t,k)) because multiplication of
  extended reals is associative.
-/
import proofs.«174437_j67920612819047_2_alg».proof.Proof.Gen.ReferenceIdeal.Run
import proofs.«174437_j67920612819047_2_alg».proof.Proof.Gen.ReferenceIdeal.Read
import proofs.«174437_j67920612819047_2_alg».proof.Proof.Spec

noncomputable section

namespace Cert.ReferenceIdeal.RefValue

open Cert.ReferenceIdeal Cert.ReferenceIdeal.Gen Cert.ReferenceIdeal.Read Cert.Trilinear
open Idealize.ShloMosaic Idealize.ShloMosaic.ValueIdx

/-- Where the flattened result at (b, t, f) reads the padded V: at (b, t, f / 1089). -/
theorem idx_V (y : S64x50x35937.Idx) :
    idx_main_v6 (idx_main_v8 (idx_main_v12 (idx_main_v15 y))) = ix3 (y 0) (y 1) (fi (y 2)) := by
  have h0 : (y 0).val < 64 := (y 0).isLt
  have h1 : (y 1).val < 50 := (y 1).isLt
  have h2 : (y 2).val < 35937 := (y 2).isLt
  funext a
  apply Fin.ext
  match a with
  | ⟨0, _⟩ => show (((y 0).val * 50 + (y 1).val) * 35937 + (y 2).val) / 1796850 = (y 0).val; omega
  | ⟨1, _⟩ => show (((y 0).val * 50 + (y 1).val) * 35937 + (y 2).val) / 35937 % 50 = (y 1).val; omega
  | ⟨2, _⟩ => show (((y 0).val * 50 + (y 1).val) * 35937 + (y 2).val) / 1089 % 33 = (y 2).val / 1089; omega

/-- Where it reads the padded A: at (b, t, f / 33 % 33). -/
theorem idx_A (y : S64x50x35937.Idx) :
    idx_main_v7 (idx_main_v9 (idx_main_v12 (idx_main_v15 y))) = ix3 (y 0) (y 1) (fj (y 2)) := by
  have h0 : (y 0).val < 64 := (y 0).isLt
  have h1 : (y 1).val < 50 := (y 1).isLt
  have h2 : (y 2).val < 35937 := (y 2).isLt
  funext a
  apply Fin.ext
  match a with
  | ⟨0, _⟩ => show (((y 0).val * 50 + (y 1).val) * 35937 + (y 2).val) / 1796850 = (y 0).val; omega
  | ⟨1, _⟩ => show (((y 0).val * 50 + (y 1).val) * 35937 + (y 2).val) / 35937 % 50 = (y 1).val; omega
  | ⟨2, _⟩ => show (((y 0).val * 50 + (y 1).val) * 35937 + (y 2).val) / 33 % 33 = (y 2).val / 33 % 33; omega

/-- Where it reads the padded D: at (b, t, f % 33). -/
theorem idx_D (y : S64x50x35937.Idx) :
    idx_main_v11 (idx_main_v13 (idx_main_v15 y)) = ix3 (y 0) (y 1) (fk (y 2)) := by
  have h0 : (y 0).val < 64 := (y 0).isLt
  have h1 : (y 1).val < 50 := (y 1).isLt
  have h2 : (y 2).val < 35937 := (y 2).isLt
  funext a
  apply Fin.ext
  match a with
  | ⟨0, _⟩ => show (((y 0).val * 50 + (y 1).val) * 35937 + (y 2).val) / 1796850 = (y 0).val; omega
  | ⟨1, _⟩ => show (((y 0).val * 50 + (y 1).val) * 35937 + (y 2).val) / 35937 % 50 = (y 1).val; omega
  | ⟨2, _⟩ => show (((y 0).val * 50 + (y 1).val) * 35937 + (y 2).val) % 33 = (y 2).val % 33; omega

/-- THE REFERENCE: its result is the trilinear product of the padded inputs, by associativity. -/
theorem result_eq (x0 x1 x2 : S64x50x32.Idx → Elt Ideal .f32) :
    val_main_v15 (F := Ideal) x0 x1 x2
      = G (val_main_v1 (F := Ideal) x0) (val_main_v3 (F := Ideal) x1) (val_main_v5 (F := Ideal) x2) := by
  funext y
  rw [val_main_v15_apply, val_main_v14_apply, val_main_v12_apply, val_main_v10_apply, val_main_v8_apply, val_main_v6_apply,
    val_main_v9_apply, val_main_v7_apply, val_main_v13_apply, val_main_v11_apply, idx_V, idx_A, idx_D]
  exact mul_assoc _ _ _

end Cert.ReferenceIdeal.RefValue

end
-- ==== Proof.lean ====
/-
  The trilinear outer product of three padded feature vectors, kernel against reference.

  Each input x : [64, 50, 32] is padded with a leading column of ones to X : [64, 50, 33].  With
  V, A, D the three padded inputs, both programs compute, at (b, t, i·1089 + j·33 + k) for
  0 ≤ i, j, k < 33, the product of V(b,t,i), A(b,t,j) and D(b,t,k).

  The kernel works on rows r = b·50 + t, 64 rows per grid point: it first fills a slab with
  A(r,j) · D(r,k) at column j·33 + k, then writes V(r,i) · slab into the i-th run of 1089 columns:
  V · (A · D).  The reference multiplies V · A first and then by D: (V · A) · D.  On the extended reals
  multiplication is associative (also at the infinities and at zero), so the two results are equal
  element by element, for all inputs; the finiteness of the inputs is not needed.

  The modules: Spec (the product as one function, over the three layouts it is met in), Pieces (one
  store's arithmetic and what it contributes to its buffer), Block (what the body leaves in one
  output block), Rows (the call's whole result from its 50 blocks), KernelValue (the padding and
  the two re-layouts around the call; the kernel's run), RefValue (the reference's result, by
  associativity).  Here: the five claims.
-/
import proofs.«174437_j67920612819047_2_alg».proof.Defs
import proofs.«174437_j67920612819047_2_alg».proof.Proof.Gen.Kernel
import proofs.«174437_j67920612819047_2_alg».proof.Proof.Gen.Kernel.Skeleton
import proofs.«174437_j67920612819047_2_alg».proof.Proof.Gen.Kernel.Launch
import proofs.«174437_j67920612819047_2_alg».proof.Proof.Gen.Kernel.Points
import proofs.«174437_j67920612819047_2_alg».proof.Proof.Gen.Kernel.Frame
import proofs.«174437_j67920612819047_2_alg».proof.Proof.Gen.KernelIdeal
import proofs.«174437_j67920612819047_2_alg».proof.Proof.Gen.KernelIdeal.Skeleton
import proofs.«174437_j67920612819047_2_alg».proof.Proof.Gen.KernelIdeal.Launch
import proofs.«174437_j67920612819047_2_alg».proof.Proof.Gen.KernelIdeal.Points
import proofs.«174437_j67920612819047_2_alg».proof.Proof.Gen.KernelIdeal.Frame
import proofs.«174437_j67920612819047_2_alg».proof.Proof.Gen.ReferenceIdeal
import proofs.«174437_j67920612819047_2_alg».proof.Proof.Gen.ReferenceIdeal.Run
import proofs.«174437_j67920612819047_2_alg».proof.Proof.Gen.ReferenceIdeal.Read
import proofs.«174437_j67920612819047_2_alg».proof.Proof.Gen.Pre_finite_inputs
import proofs.«174437_j67920612819047_2_alg».proof.Proof.KernelValue
import proofs.«174437_j67920612819047_2_alg».proof.Proof.RefValue
import Idealize.ShloMosaic.Adequacy
import Idealize.ShloMosaic.Init

noncomputable section

namespace Cert.Proof

open Idealize.ShloMosaic Idealize.SL.Sem

/-- The kernel as printed runs to the end without a fault and leaves its three inputs as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on the extended reals. -/
theorem preserves : Cert.preserves_Kernel_KernelIdeal := trivial

/-- Both programs end with V(b,t,i) · (A(b,t,j) · D(b,t,k)) at (b, t, i·1089 + j·33 + k) of the padded inputs:
    the kernel as it computes it, the reference after re-associating its product. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
